-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S4096x4 : Shape := ⟨2, ![4096, 4]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4 : S_.BroadcastsInDim S4096x4 (![] : Fin 0 → Fin S4096x4.rank)
  reducesTo_S4096x4_S_d0_1 : S4096x4.ReducesTo [0, 1] S_

variable [Facts]

def fn_part1 {F : FTy → Type} [FloatOps F] (main_arg4 : FVec F S4096x4 .f32) (main_arg5 : FVec F S4096x4096 .f32) (main_v13 : IVec S_ 1) (main_v16 : IVec S4096x4 1) : IVec S_ 1 :=
  let main_c_5 : IVec S_ 1 := constantI S_ 1 1#1
  let main_v17 : IVec S_ 1 := (fun x v => Host.reduce IntOp.andi x v reducesTo_S4096x4_S_d0_1 h_S_) main_v16 main_c_5
  let main_v18 : IVec S_ 1 := andi main_v13 main_v17
  let main_v19 : FVec F S4096x4 .f32 := Host.absf main_arg4
  let main_cst_6 : FVec F S_ .f32 := constant S_ .f32 0x7F800000#32
  let main_v20 : FVec F S4096x4 .f32 := broadcastInDim S4096x4 ![] bcast_S_S4096x4 main_cst_6
  let main_v21 : IVec S4096x4 1 := cmpf .olt main_v19 main_v20
  let main_c_7 : IVec S_ 1 := constantI S_ 1 1#1
  let main_v22 : IVec S_ 1 := (fun x v => Host.reduce IntOp.andi x v reducesTo_S4096x4_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S4096x4096 .f32) (main_arg1 : FVec F S4096x4096 .f32) (main_arg2 : FVec F S4096 .f32) (main_arg3 : FVec F S4096x4 .f32) (main_arg4 : FVec F S4096x4 .f32) (main_arg5 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4 .f32 := Host.absf main_arg3
  let main_cst_4 : FVec F S_ .f32 := constant S_ .f32 0x7F800000#32
  let main_v15 : FVec F S4096x4 .f32 := broadcastInDim S4096x4 ![] bcast_S_S4096x4 main_cst_4
  let main_v16 : IVec S4096x4 1 := cmpf .olt main_v14 main_v15
  fn_part1 (F := F) main_arg4 main_arg5 main_v13 main_v16
-- ==== Kernel.lean ====
abbrev S4096x4096 : Shape := ⟨2, ![4096, 4096]⟩
abbrev S4096 : Shape := ⟨1, ![4096]⟩
abbrev S4096x4 : Shape := ⟨2, ![4096, 4]⟩
abbrev S4x4096 : Shape := ⟨2, ![4, 4096]⟩
abbrev S1x4096 : Shape := ⟨2, ![1, 4096]⟩
abbrev S1024x1024 : Shape := ⟨2, ![1024, 1024]⟩
abbrev S1024x512 : Shape := ⟨2, ![1024, 512]⟩
abbrev S512x1024 : Shape := ⟨2, ![512, 1024]⟩
abbrev S1x1024 : Shape := ⟨2, ![1, 1024]⟩
abbrev S4x1024 : Shape := ⟨2, ![4, 1024]⟩
abbrev S1024x4 : Shape := ⟨2, ![1024, 4]⟩

abbrev nBuf : Space → Nat
  | .hbm => 13
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4, .f32⟩
  | .hbm, ⟨4, _⟩ => ⟨S4096x4, .f32⟩
  | .hbm, ⟨5, _⟩ => ⟨S4096x4096, .f32⟩
  | .hbm, ⟨6, _⟩ => ⟨S4096x4, .f32⟩
  | .hbm, ⟨7, _⟩ => ⟨S4096x4096, .bf16⟩
  | .hbm, ⟨8, _⟩ => ⟨S4096x4096, .bf16⟩
  | .hbm, ⟨9, _⟩ => ⟨S4x4096, .f32⟩
  | .hbm, ⟨10, _⟩ => ⟨S4x4096, .bf16⟩
  | .hbm, ⟨11, _⟩ => ⟨S1x4096, .f32⟩
  | .hbm, ⟨12, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S4x1024, .bf16⟩
  | .local _ .vmem, ⟨9, _⟩ => ⟨S4x1024, .bf16⟩
  | .local _ .vmem, ⟨10, _⟩ => ⟨S1024x4, .f32⟩
  | .local _ .vmem, ⟨11, _⟩ => ⟨S1024x4, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S4x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  transposes_S4096x4_S4x4096_1_0 : S4096x4.Transposes [1, 0] S4x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  broadcasts_S1x1024_S1024x1024 : S1x1024.Broadcasts S1024x1024
  dot_S4096x4096_S4096x4_S4096x4_1_0_0_1_n_n_wf : DotDims.WF S4096x4096 S4096x4 S4096x4 [1] [0] [0] [1] [] []
  dot_S1024x512_S512x1024_S1024x1024_1_0_0_1_n_n_wf : DotDims.WF S1024x512 S512x1024 S1024x1024 [1] [0] [0] [1] [] []
  dot_S1024x4_S4x1024_S1024x1024_1_0_0_1_n_n_wf : DotDims.WF S1024x4 S4x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .bf16 = 32 ∨ (Rect.block (s := S4096x4096) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x4096.size a
  hwx0_4 : ∀ i : grid0.Coords, EltTy.bits .bf16 = 32 ∨ (Rect.block (s := S4x4096) S4x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x4.size a ≤ S4096x4.size a
  hwx0_5 : ∀ i : grid0.Coords, EltTy.bits .f32 = 32 ∨ (Rect.block (s := S4096x4) S1024x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x4096.size a
  hwx0_6 : ∀ i : grid0.Coords, EltTy.bits .f32 = 32 ∨ (Rect.block (s := S4096x4096) S1024x1024.size (cc0_transform_6 i) (hinb0_6 i)).WholeWords (EltTy.packing .f32)

variable [Facts₀]

def dot_S4096x4096_S4096x4_S4096x4_1_0_0_1_n_n : DotDims S4096x4096 S4096x4 S4096x4 where
  lhsContracting := [1]
  rhsContracting := [0]
  lhsNonContracting := [0]
  rhsNonContracting := [1]
  lhsBatch := []
  rhsBatch := []
  wf := dot_S4096x4096_S4096x4_S4096x4_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x4_S4x1024_S1024x1024_1_0_0_1_n_n : DotDims S1024x4 S4x1024 S1024x1024 where
  lhsContracting := [1]
  rhsContracting := [0]
  lhsNonContracting := [0]
  rhsNonContracting := [1]
  lhsBatch := []
  rhsBatch := []
  wf := dot_S1024x4_S4x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S4x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1024x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S4096x4 : Shape := ⟨2, ![4096, 4]⟩
abbrev S1x4096 : Shape := ⟨2, ![1, 4096]⟩
abbrev S4x4096 : Shape := ⟨2, ![4, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4, .f32⟩
  | .hbm, ⟨4, _⟩ => ⟨S4096x4, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4, .f32⟩
  | .hbm, ⟨10, _⟩ => ⟨S4x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x4_S4x4096_1_0 : S4096x4.Transposes [1, 0] S4x4096
  bcast_S_S4096x4096 : S_.BroadcastsInDim S4096x4096 (![] : Fin 0 → Fin S4096x4096.rank)
  dot_S4096x4096_S4096x4_S4096x4_1_0_0_1_n_n_wf : DotDims.WF S4096x4096 S4096x4 S4096x4 [1] [0] [0] [1] [] []
  dot_S4096x4_S4x4096_S4096x4096_1_0_0_1_n_n_wf : DotDims.WF S4096x4 S4x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x4096_S4096x4_S4096x4_1_0_0_1_n_n : DotDims S4096x4096 S4096x4 S4096x4 where
  lhsContracting := [1]
  rhsContracting := [0]
  lhsNonContracting := [0]
  rhsNonContracting := [1]
  lhsBatch := []
  rhsBatch := []
  wf := dot_S4096x4096_S4096x4_S4096x4_1_0_0_1_n_n_wf
def dot_S4096x4_S4x4096_S4096x4096_1_0_0_1_n_n : DotDims S4096x4 S4x4096 S4096x4096 where
  lhsContracting := [1]
  rhsContracting := [0]
  lhsNonContracting := [0]
  rhsNonContracting := [1]
  lhsBatch := []
  rhsBatch := []
  wf := dot_S4096x4_S4x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one run of the kernel body leaves behind, case by case, as plain terms of the blocks it loads.
  The body keeps a [1024, 1024] accumulator in scratch. At the first step of a reduction run (k = 0) it stores the zero
  block, reads it back and stores zero + x_k·b_k; at every later step it stores acc + x_k·b_k of what the step before
  left; and at the last step (k = 7) it also stores the output block, computed from h, a, h·q, pᵀ and the accumulator it
  has just updated. Here each of these stored blocks is identified with the body's arithmetic term (the accumulate term
  and the epilogue term) applied to the loaded blocks — at any float instance.
-/
import proofs.«181534_j9680856285215_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The first step of a run stores the zero block and then leaves `zero + x_0·b_0` in the accumulator. -/
theorem acc_A (c : Dev nD) (i : grid0.Coords) (arg3 : Memref sig .tc .vmem S1024x1024 .f32) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S4x1024 .bf16) (harg7 : arg7.IsWhole) (arg8 : Memref sig .tc .vmem S1024x4 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i)
    (x0 : Vec F S1024x1024 .f32) (x1 : Vec F S1024x512 .bf16) (x2 : Vec F S512x1024 .bf16) (x3 : Vec F S1x1024 .f32) (x4 : Vec F S4x1024 .bf16) (x5 : Vec F S1024x4 .f32) :
    sout0_A_0 c i arg3 harg3 arg4 harg4 arg5 harg5 arg6 harg6 arg7 harg7 arg8 harg8 arg9 harg9 arg10 harg10 hc0 hc1 x0 x1 x2 x3 x4 x5 = k0_pay2 x1 x2 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) hz, View.readCov_unit_zero (S := S1024x1024) _ hz]
  simp only [View.readAt_eq_ld, harg4.read_unread, harg5.read_unread,
    View.ld_unit_zero (S := S1024x512) hz, View.ld_unit_zero (S := S512x1024) hz]

/-- A later step that is not the last leaves `acc + x_k·b_k` in the accumulator. -/
theorem acc_B (c : Dev nD) (i : grid0.Coords) (arg3 : Memref sig .tc .vmem S1024x1024 .f32) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S4x1024 .bf16) (harg7 : arg7.IsWhole) (arg8 : Memref sig .tc .vmem S1024x4 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i)
    (x0 : Vec F S1024x1024 .f32) (x1 : Vec F S1024x512 .bf16) (x2 : Vec F S512x1024 .bf16) (x3 : Vec F S1x1024 .f32) (x4 : Vec F S4x1024 .bf16) (x5 : Vec F S1024x4 .f32) (xs0 : Vec F S1024x1024 .f32) :
    sout0_B_0 c i arg3 harg3 arg4 harg4 arg5 harg5 arg6 harg6 arg7 harg7 arg8 harg8 arg9 harg9 arg10 harg10 hc0 hc1 x0 x1 x2 x3 x4 x5 xs0 = k0_pay2 x1 x2 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero hz]
  simp only [View.readAt_eq_ld, harg4.read_unread, harg5.read_unread, harg10.read_unread,
    View.ld_unit_zero (S := S1024x512) hz, View.ld_unit_zero (S := S512x1024) hz, View.ld_unit_zero (S := S1024x1024) hz]

/-- The last step leaves `acc + x_7·b_7` in the accumulator, -/
theorem acc_C (c : Dev nD) (i : grid0.Coords) (arg3 : Memref sig .tc .vmem S1024x1024 .f32) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S4x1024 .bf16) (harg7 : arg7.IsWhole) (arg8 : Memref sig .tc .vmem S1024x4 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x1024 .f32) (x1 : Vec F S1024x512 .bf16) (x2 : Vec F S512x1024 .bf16) (x3 : Vec F S1x1024 .f32) (x4 : Vec F S4x1024 .bf16) (x5 : Vec F S1024x4 .f32) (xs0 : Vec F S1024x1024 .f32) :
    sout0_C_0 c i arg3 harg3 arg4 harg4 arg5 harg5 arg6 harg6 arg7 harg7 arg8 harg8 arg9 harg9 arg10 harg10 hc0 hc1 x0 x1 x2 x3 x4 x5 xs0 = k0_pay2 x1 x2 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero (S := S1024x1024) hz]
  simp only [View.readAt_eq_ld, harg4.read_unread, harg5.read_unread, harg10.read_unread,
    View.ld_unit_zero (S := S1024x512) hz, View.ld_unit_zero (S := S512x1024) hz, View.ld_unit_zero (S := S1024x1024) hz]

/-- and the output block: the epilogue of h's, a's, (h·q)'s and pᵀ's blocks and of the accumulator just updated. -/
theorem out_C (c : Dev nD) (i : grid0.Coords) (arg3 : Memref sig .tc .vmem S1024x1024 .f32) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S4x1024 .bf16) (harg7 : arg7.IsWhole) (arg8 : Memref sig .tc .vmem S1024x4 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x1024 .f32) (x1 : Vec F S1024x512 .bf16) (x2 : Vec F S512x1024 .bf16) (x3 : Vec F S1x1024 .f32) (x4 : Vec F S4x1024 .bf16) (x5 : Vec F S1024x4 .f32) (xs0 : Vec F S1024x1024 .f32) :
    out0_C_6 c i arg3 harg3 arg4 harg4 arg5 harg5 arg6 harg6 arg7 harg7 arg8 harg8 arg9 harg9 arg10 harg10 hc0 hc1 x0 x1 x2 x3 x4 x5 xs0 = k0_pay3 x0 x3 x5 x4 (k0_pay2 x1 x2 xs0) := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg5.read_unread, harg6.read_unread, harg7.read_unread, harg8.read_unread, harg10.read_unread,
    View.ld_unit_zero (S := S1024x1024) hz, View.ld_unit_zero (S := S1024x512) hz, View.ld_unit_zero (S := S512x1024) hz,
    View.ld_unit_zero (S := S1x1024) hz, View.ld_unit_zero (S := S4x1024) hz, View.ld_unit_zero (S := S1024x4) hz]

end Cert.KernelIdeal.Pieces

end
-- ==== Proof.Spec.lean ====
/-
  The function both programs compute, stated once over the six argument arrays as extended reals.
  With h, x of shape [4096, 4096], a of shape [4096], p, q of shape [4096, 4] and b of shape [4096, 4096], the entry at
  row r and column c is
      (h[r,c] + 1·(h[r,c]·a[c] + Σ_{s<4} (Σ_{t<4096} h[r,t]·q[t,s])·p[c,s])) + 1·Σ_{t<4096} x[r,t]·b[t,c],
  the operations grouped exactly as written, and `1` the value of the float literal 1.0 (never evaluated: the same
  literal stands on both sides).
-/
import Idealize.ShloMosaic.PureOps.Ideal
import Idealize.ShloMosaic.Lib.ValueIdx

noncomputable section

namespace Cert.Spec

open Idealize.ShloMosaic Idealize.ShloMosaic.ValueIdx

/-- A [4096, 4096] array of extended reals. -/
abbrev Sq : Type := (⟨2, ![4096, 4096]⟩ : Shape).Idx → EReal
/-- A [4096, 4] array. -/
abbrev Thin : Type := (⟨2, ![4096, 4]⟩ : Shape).Idx → EReal
/-- A [4096] array. -/
abbrev Row : Type := (⟨1, ![4096]⟩ : Shape).Idx → EReal

/-- The value of the float literal 1.0. -/
abbrev one : EReal := Ideal.ofBits .f32 0x3F800000#32

/-- Entry (r, s) of h·q: row r of h against column s of q. -/
def hq (h : Sq) (q : Thin) (r : Fin 4096) (s : Fin 4) : EReal := ∑ t : Fin 4096, h (ix2 r t) * q (ix2 t s)

/-- Entry (r, c) of (h·q)·pᵀ. -/
def lowRank (h : Sq) (p q : Thin) (r c : Fin 4096) : EReal := ∑ s : Fin 4, hq h q r s * p (ix2 c s)

/-- Entry (r, c) of x·b. -/
def xb (x b : Sq) (r c : Fin 4096) : EReal := ∑ t : Fin 4096, x (ix2 r t) * b (ix2 t c)

/-- The result's entry at row r, column c. -/
def entry (h x : Sq) (a : Row) (p q : Thin) (b : Sq) (r c : Fin 4096) : EReal :=
  (h (ix2 r c) + one * (h (ix2 r c) * a (ix1 c) + lowRank h p q r c)) + one * xb x b r c

/-- The result array. -/
def G (h x : Sq) (a : Row) (p q : Thin) (b : Sq) : Sq := fun i => entry h x a p q b (i 0) (i 1)

theorem G_apply (h x : Sq) (a : Row) (p q : Thin) (b : Sq) (r c : Fin 4096) :
    G h x a p q b (ix2 r c) = entry h x a p q b r c := rfl

end Cert.Spec

end
-- ==== Proof.Payload.lean ====
/-
  The body's three arithmetic terms read at an entry (p, q) of a [1024, 1024] block, over the extended reals:
  the zero block is 0; the accumulate term is acc[p,q] + Σ_{k<512} x[p,k]·b[k,q]; the epilogue term is
  (h[p,q] + 1·(h[p,q]·a[0,q] + Σ_{s<4} hq[p,s]·pT[s,q])) + 1·acc[p,q].
  A matrix-unit product into a zero accumulator is the plain sum of products over the contracted axis (no rounding and
  no order is left in it at this instance), a change of float format is the identity, and the [1, 1024] row of a is
  repeated down the rows.
-/
import proofs.«181534_j9680856285215_2_alg».proof.Proof.Gen.KernelIdeal.Skeleton
import proofs.«181534_j9680856285215_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen

/-! ## Which operand entries a product's entry (p, q) meets at contraction position k: (p, k) and (k, q) -/

theorem dx_lhs0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem dx_lhs1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem dx_rhs0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem dx_rhs1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

theorem dl_lhs0 (i : S1024x1024.Idx) (q : dot_S1024x4_S4x1024_S1024x1024_1_0_0_1_n_n.contr.Idx) : (dot_S1024x4_S4x1024_S1024x1024_1_0_0_1_n_n.lhsIdx i q 0).val = (i 0).val := by
  unfold DotDims.lhsIdx
  rw [dif_neg (show ¬(0 : Fin S1024x4.rank) ∈ dot_S1024x4_S4x1024_S1024x1024_1_0_0_1_n_n.lhsBatch by decide), dif_pos (show (0 : Fin S1024x4.rank) ∈ dot_S1024x4_S4x1024_S1024x1024_1_0_0_1_n_n.lhsNonContracting by decide)]
  rfl
theorem dl_lhs1 (i : S1024x1024.Idx) (q : dot_S1024x4_S4x1024_S1024x1024_1_0_0_1_n_n.contr.Idx) : (dot_S1024x4_S4x1024_S1024x1024_1_0_0_1_n_n.lhsIdx i q 1).val = (q ⟨0, by decide⟩).val :=
  dot_S1024x4_S4x1024_S1024x1024_1_0_0_1_n_n.lhsIdx_val_of_single rfl i q
theorem dl_rhs0 (i : S1024x1024.Idx) (q : dot_S1024x4_S4x1024_S1024x1024_1_0_0_1_n_n.contr.Idx) : (dot_S1024x4_S4x1024_S1024x1024_1_0_0_1_n_n.rhsIdx i q 0).val = (q ⟨0, by decide⟩).val :=
  dot_S1024x4_S4x1024_S1024x1024_1_0_0_1_n_n.rhsIdx_val_of_single rfl i q
theorem dl_rhs1 (i : S1024x1024.Idx) (q : dot_S1024x4_S4x1024_S1024x1024_1_0_0_1_n_n.contr.Idx) : (dot_S1024x4_S4x1024_S1024x1024_1_0_0_1_n_n.rhsIdx i q 1).val = (i 1).val := by
  unfold DotDims.rhsIdx
  rw [dif_neg (show ¬(1 : Fin S4x1024.rank) ∈ dot_S1024x4_S4x1024_S1024x1024_1_0_0_1_n_n.rhsBatch by decide), dif_pos (show (1 : Fin S4x1024.rank) ∈ dot_S1024x4_S4x1024_S1024x1024_1_0_0_1_n_n.rhsNonContracting by decide)]
  rfl

/-- x·b for a [1024, 512] block against a [512, 1024] block, into the zero accumulator. -/
theorem prodXB_apply (l : FVec Ideal S1024x512 .bf16) (r : FVec Ideal S512x1024 .bf16) (p q : Fin 1024) :
    matmul dot_S1024x512_S512x1024_S1024x1024_1_0_0_1_n_n none l r (constant S1024x1024 .f32 0x00000000#32) (ix2 p q)
      = ∑ k : Fin 512, l (ix2 p k) * r (ix2 k q) := by
  simp only [matmul]
  rw [Ideal.matmul_constant_zero_apply]
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact dx_lhs0 _ _
    | ⟨1, _⟩ => exact (dx_lhs1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (dx_rhs0 _ _).trans hk
    | ⟨1, _⟩ => exact dx_rhs1 _ _)
  rw [el, er]

/-- hq·pT for a [1024, 4] block against a [4, 1024] block, into the zero accumulator. -/
theorem prodLR_apply (l : FVec Ideal S1024x4 .bf16) (r : FVec Ideal S4x1024 .bf16) (p q : Fin 1024) :
    matmul dot_S1024x4_S4x1024_S1024x1024_1_0_0_1_n_n none l r (constant S1024x1024 .f32 0x00000000#32) (ix2 p q)
      = ∑ k : Fin 4, l (ix2 p k) * r (ix2 k q) := by
  simp only [matmul]
  rw [Ideal.matmul_constant_zero_apply]
  rw [← Equiv.sum_comp (contrEquiv1 dot_S1024x4_S4x1024_S1024x1024_1_0_0_1_n_n 4 rfl rfl).symm]
  refine Finset.sum_congr rfl fun k _ => ?_
  have hk := contrEquiv1_symm_val dot_S1024x4_S4x1024_S1024x1024_1_0_0_1_n_n 4 rfl rfl k
  have el : dot_S1024x4_S4x1024_S1024x1024_1_0_0_1_n_n.lhsIdx (ix2 p q) ((contrEquiv1 dot_S1024x4_S4x1024_S1024x1024_1_0_0_1_n_n 4 rfl rfl).symm k) = ix2 p k := funext fun a => Fin.ext (by
    match a with
    | ⟨0, _⟩ => exact dl_lhs0 _ _
    | ⟨1, _⟩ => exact (dl_lhs1 _ _).trans hk)
  have er : dot_S1024x4_S4x1024_S1024x1024_1_0_0_1_n_n.rhsIdx (ix2 p q) ((contrEquiv1 dot_S1024x4_S4x1024_S1024x1024_1_0_0_1_n_n 4 rfl rfl).symm k) = ix2 k q := funext fun a => Fin.ext (by
    match a with
    | ⟨0, _⟩ => exact (dl_rhs0 _ _).trans hk
    | ⟨1, _⟩ => exact dl_rhs1 _ _)
  rw [el, er]

/-! ## The three terms -/

/-- The zero block. -/
theorem zero_apply (y : S1024x1024.Idx) : k0_pay1 (F := Ideal) y = 0 := by
  unfold k0_pay1
  simp only [shapeCast_self]
  exact Ideal.ofBits_zero_f32

/-- The accumulate term. -/
theorem accumulate_apply (x : FVec Ideal S1024x512 .bf16) (b : FVec Ideal S512x1024 .bf16) (acc : FVec Ideal S1024x1024 .f32)
    (p q : Fin 1024) :
    k0_pay2 (F := Ideal) x b acc (ix2 p q) = acc (ix2 p q) + ∑ k : Fin 512, x (ix2 p k) * b (ix2 k q) := by
  unfold k0_pay2
  simp only [shapeCast_self]
  exact congrArg (acc (ix2 p q) + ·) (prodXB_apply x b p q)

/-- The epilogue term. -/
theorem epilogue_apply (h : FVec Ideal S1024x1024 .f32) (a : FVec Ideal S1x1024 .f32) (hq : FVec Ideal S1024x4 .f32)
    (pT : FVec Ideal S4x1024 .bf16) (acc : FVec Ideal S1024x1024 .f32) (p q : Fin 1024) :
    k0_pay3 (F := Ideal) h a hq pT acc (ix2 p q)
      = (h (ix2 p q) + Cert.Spec.one * (h (ix2 p q) * a (ix2 (0 : Fin 1) q) + ∑ s : Fin 4, hq (ix2 p s) * pT (ix2 s q)))
          + Cert.Spec.one * acc (ix2 p q) := by
  unfold k0_pay3
  simp only [shapeCast_self]
  show (h (ix2 p q) + Ideal.ofBits .f32 0x3F800000#32 * (h (ix2 p q) * broadcastTo S1024x1024 a _ (ix2 p q)
      + matmul dot_S1024x4_S4x1024_S1024x1024_1_0_0_1_n_n none (truncf .bf16 hq _) pT (constant S1024x1024 .f32 0x00000000#32) (ix2 p q)))
      + Ideal.ofBits .f32 0x3F800000#32 * acc (ix2 p q) = _
  rw [broadcastTo_1b_ab_apply, prodLR_apply]
  rfl

end Cert.KernelIdeal.Payload

end
-- ==== Proof.Fold.lean ====
/-
  The accumulator over one reduction run, and the output block the run ends with.
  Points 8u, 8u+1, …, 8u+7 of the grid share one output block and walk the eight slabs of the contracted axis. At the
  first the accumulator becomes 0 + x₀·b₀, at each later one acc + x_k·b_k: so after the last it holds, entry by entry,
  zero plus the sum over the eight points of that point's product x_k·b_k — a sum of sums, with no order left in it on
  the extended reals. The last point also stores the output block: the epilogue of h's, a's, (h·q)'s and pᵀ's blocks and
  of that accumulator.
-/
import proofs.«181534_j9680856285215_2_alg».proof.Proof.Gen.KernelIdeal.Value
import proofs.«181534_j9680856285215_2_alg».proof.Proof.Pieces
import proofs.«181534_j9680856285215_2_alg».proof.Proof.Payload

noncomputable section

namespace Cert.KernelIdeal.Fold

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## The six input blocks at a point, as plain arrays -/

def hblk (c : Dev nD) (t : Fin cfg0.N) : FVec Ideal S1024x1024 .f32 := iblk m c 0 t
def xblk (c : Dev nD) (t : Fin cfg0.N) : FVec Ideal S1024x512 .bf16 := iblk m c 1 t
def bblk (c : Dev nD) (t : Fin cfg0.N) : FVec Ideal S512x1024 .bf16 := iblk m c 2 t
def ablk (c : Dev nD) (t : Fin cfg0.N) : FVec Ideal S1x1024 .f32 := iblk m c 3 t
def pblk (c : Dev nD) (t : Fin cfg0.N) : FVec Ideal S4x1024 .bf16 := iblk m c 4 t
def qblk (c : Dev nD) (t : Fin cfg0.N) : FVec Ideal S1024x4 .f32 := iblk m c 5 t

/-! ## One step of the accumulator -/

/-- Whatever the case, point n leaves the accumulate term of its x and b blocks in the accumulator: over the zero block
    at the first point of a run, over what the point before left elsewhere. -/
theorem step_eq (c : Dev nD) (n : ℕ) (hn : n < cfg0.N) (acc : Vec Ideal S1024x1024 .f32) :
    Value.scAt0_0 m c n hn acc
      = k0_pay2 (xblk m c ⟨n, hn⟩) (bblk m c ⟨n, hn⟩) (if n % 8 = 0 then k0_pay1 else acc) := by
  unfold Value.scAt0_0
  by_cases h0 : n % 8 = 0
  · by_cases h1 : n % 8 = 7
    · omega
    · rw [dif_pos h0, dif_neg h1, if_pos h0]
      exact Pieces.acc_A c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N))
  · by_cases h1 : n % 8 = 7
    · rw [dif_neg h0, dif_pos h1, if_neg h0]
      exact Pieces.acc_C c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) acc
    · rw [dif_neg h0, dif_neg h1, if_neg h0]
      exact Pieces.acc_B c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) (ms0_5 (⟨n, hn⟩ : Fin cfg0.N)) (hs0_5 (⟨n, hn⟩ : Fin cfg0.N)) (ms0_6 (⟨n, hn⟩ : Fin cfg0.N)) (hs0_6 (⟨n, hn⟩ : Fin cfg0.N)) scM0_0 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (iblk m c 4 (⟨n, hn⟩ : Fin cfg0.N)) (iblk m c 5 (⟨n, hn⟩ : Fin cfg0.N)) acc

/-! ## The run's fold -/

/-- Point n's product x_k·b_k at entry (p, q) (zero past the grid, where it is never used). -/
def addendAt (c : Dev nD) (n : ℕ) (p q : Fin 1024) : EReal :=
  if hn : n < cfg0.N then ∑ k : Fin 512, xblk m c ⟨n, hn⟩ (ix2 p k) * bblk m c ⟨n, hn⟩ (ix2 k q) else 0

/-- The same at a block index. -/
def addend (c : Dev nD) (n : ℕ) (y : S1024x1024.Idx) : EReal := addendAt m c n (y 0) (y 1)

/-- After the eight points of the run that starts at point b, the accumulator is zero plus the sum of their products. -/
theorem acc_run (c : Dev nD) (b : ℕ) (hb : b % 8 = 0) (h : b + 7 < cfg0.N) (p q : Fin 1024) :
    Pipeline.accAt (fun n h => Value.scAt0_0 m c n h (VS0_0.read (Elt Ideal) VS0_0.junk)) (Value.scAt0_0 m c) b 7 h (ix2 p q)
      = 0 + ∑ s ∈ Finset.range 8, addendAt m c (b + s) p q := by
  refine Pipeline.accAt_add_apply (N := cfg0.N)
    (fun n h => Value.scAt0_0 m c n h (VS0_0.read (Elt Ideal) VS0_0.junk)) (Value.scAt0_0 m c) (fun _ => (0 : EReal)) (addend m c) b 7
    ?ha ?hg 7 le_rfl h (ix2 p q)
  case ha =>
    intro h' i
    obtain ⟨p', q', rfl⟩ : ∃ (p' q' : Fin 1024), i = ix2 p' q' := ⟨i 0, i 1, eq_ix2 i⟩
    show Value.scAt0_0 m c b h' _ (ix2 p' q') = 0 + addendAt m c b p' q'
    rw [step_eq, if_pos hb]
    unfold addendAt
    rw [dif_pos h']
    refine (Payload.accumulate_apply (xblk m c ⟨b, h'⟩) (bblk m c ⟨b, h'⟩) k0_pay1 p' q').trans ?_
    rw [Payload.zero_apply]
  case hg =>
    intro n hn acc i hlt hle
    obtain ⟨p', q', rfl⟩ : ∃ (p' q' : Fin 1024), i = ix2 p' q' := ⟨i 0, i 1, eq_ix2 i⟩
    show Value.scAt0_0 m c n hn acc (ix2 p' q') = acc (ix2 p' q') + addendAt m c n p' q'
    rw [step_eq, if_neg (by omega)]
    unfold addendAt
    rw [dif_pos hn]
    exact Payload.accumulate_apply (xblk m c ⟨n, hn⟩) (bblk m c ⟨n, hn⟩) acc p' q'

/-- So after a last point t (t ≡ 7 mod 8) the accumulator is zero plus the sum over its run's eight points. -/
theorem acc_after (c : Dev nD) (t : Fin cfg0.N) (h7 : t.val % 8 = 7) (p q : Fin 1024) :
    (outsAt0 m c t.val t.isLt).2 (ix2 p q) = 0 + ∑ s ∈ Finset.range 8, addendAt m c (8 * (t.val / 8) + s) p q := by
  have hN : cfg0.N = 128 := N_0
  have ht := t.isLt
  rw [Value.soutsAt0_0_eq m c t]
  have e : ∀ (j : ℕ) (hj : 8 * (t.val / 8) + j < cfg0.N) (hj' : 8 * (t.val / 8) + 7 < cfg0.N), j = 7 →
      Pipeline.accAt (fun n h => Value.scAt0_0 m c n h (VS0_0.read (Elt Ideal) VS0_0.junk)) (Value.scAt0_0 m c) (8 * (t.val / 8)) j hj
        = Pipeline.accAt (fun n h => Value.scAt0_0 m c n h (VS0_0.read (Elt Ideal) VS0_0.junk)) (Value.scAt0_0 m c) (8 * (t.val / 8)) 7 hj' := by
    intro j hj hj' ej; subst ej; rfl
  rw [e _ _ (by omega) h7]
  exact acc_run m c (8 * (t.val / 8)) (by omega) (by omega) p q

/-! ## The output block at a last point -/

/-- A last point leaves in the output's buffer the epilogue of its h, a, h·q and pᵀ blocks and of the accumulator it has
    just updated. -/
theorem out_at (c : Dev nD) (t : Fin cfg0.N) (h7 : t.val % 8 = 7) :
    (outsAt0 m c t.val t.isLt).1
      = k0_pay3 (hblk m c t) (ablk m c t) (qblk m c t) (pblk m c t) ((outsAt0 m c t.val t.isLt).2) := by
  have h0 : ¬ t.val % 8 = 0 := by omega
  rw [outsAt0_C m c t h0 h7]
  dsimp only
  exact (Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) ((outsAt0 m c (t.val - 1) (Nat.lt_of_le_of_lt (Nat.sub_le _ _) t.isLt)).2)).trans
    (congrArg (k0_pay3 (iblk m c 0 t) (iblk m c 3 t) (iblk m c 5 t) (iblk m c 4 t)) (Pieces.acc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h7) (iblk m c 0 t) (iblk m c 1 t) (iblk m c 2 t) (iblk m c 3 t) (iblk m c 4 t) (iblk m c 5 t) ((outsAt0 m c (t.val - 1) (Nat.lt_of_le_of_lt (Nat.sub_le _ _) t.isLt)).2)).symm)

end Cert.KernelIdeal.Fold

end
-- ==== Proof.Blocks.lean ====
/-
  Where each input block sits in its array. The grid has 4·4·8 points; point t has coordinates
  (i, j, k) = (t / 32, t / 8 mod 4, t mod 8). At that point the kernel sees rows 1024·i.. of h and of h·q, columns
  1024·j.. of h, of a, of pᵀ and of b, and the k-th slab of 512 columns of x and of 512 rows of b. Entry (y₀, y₁) of a
  block is the array's entry at (block index)·(block size) + (y₀, y₁) on each axis.
-/
import proofs.«181534_j9680856285215_2_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## The block indices, decided once over the 128 points -/

theorem idx0_row : ∀ t : Fin cfg0.N, win0_0.index t (0 : Fin 2) = t.val / 32 :=
  (by decide +kernel : ∀ t : Fin grid0.N, win0_0.index t (0 : Fin 2) = t.val / 32)
theorem idx0_col : ∀ t : Fin cfg0.N, win0_0.index t (1 : Fin 2) = t.val / 8 % 4 :=
  (by decide +kernel : ∀ t : Fin grid0.N, win0_0.index t (1 : Fin 2) = t.val / 8 % 4)

theorem idx1_row : ∀ t : Fin cfg0.N, win0_1.index t (0 : Fin 2) = t.val / 32 :=
  (by decide +kernel : ∀ t : Fin grid0.N, win0_1.index t (0 : Fin 2) = t.val / 32)
theorem idx1_col : ∀ t : Fin cfg0.N, win0_1.index t (1 : Fin 2) = t.val % 8 :=
  (by decide +kernel : ∀ t : Fin grid0.N, win0_1.index t (1 : Fin 2) = t.val % 8)

theorem idx2_row : ∀ t : Fin cfg0.N, win0_2.index t (0 : Fin 2) = t.val % 8 :=
  (by decide +kernel : ∀ t : Fin grid0.N, win0_2.index t (0 : Fin 2) = t.val % 8)
theorem idx2_col : ∀ t : Fin cfg0.N, win0_2.index t (1 : Fin 2) = t.val / 8 % 4 :=
  (by decide +kernel : ∀ t : Fin grid0.N, win0_2.index t (1 : Fin 2) = t.val / 8 % 4)

theorem idx3_row : ∀ t : Fin cfg0.N, win0_3.index t (0 : Fin 2) = 0 :=
  (by decide +kernel : ∀ t : Fin grid0.N, win0_3.index t (0 : Fin 2) = 0)
theorem idx3_col : ∀ t : Fin cfg0.N, win0_3.index t (1 : Fin 2) = t.val / 8 % 4 :=
  (by decide +kernel : ∀ t : Fin grid0.N, win0_3.index t (1 : Fin 2) = t.val / 8 % 4)

theorem idx4_row : ∀ t : Fin cfg0.N, win0_4.index t (0 : Fin 2) = 0 :=
  (by decide +kernel : ∀ t : Fin grid0.N, win0_4.index t (0 : Fin 2) = 0)
theorem idx4_col : ∀ t : Fin cfg0.N, win0_4.index t (1 : Fin 2) = t.val / 8 % 4 :=
  (by decide +kernel : ∀ t : Fin grid0.N, win0_4.index t (1 : Fin 2) = t.val / 8 % 4)

theorem idx5_row : ∀ t : Fin cfg0.N, win0_5.index t (0 : Fin 2) = t.val / 32 :=
  (by decide +kernel : ∀ t : Fin grid0.N, win0_5.index t (0 : Fin 2) = t.val / 32)
theorem idx5_col : ∀ t : Fin cfg0.N, win0_5.index t (1 : Fin 2) = 0 :=
  (by decide +kernel : ∀ t : Fin grid0.N, win0_5.index t (1 : Fin 2) = 0)

/-! ## A block's entry is its array's entry -/

theorem blk0 (c : Dev nD) (t : Fin cfg0.N) (y0 : Fin 1024) (y1 : Fin 1024) (r : Fin 4096) (c' : Fin 4096)
    (hr : r.val = 1024 * (t.val / 32) + y0.val) (hc : c'.val = 1024 * (t.val / 8 % 4) + y1.val) :
    iblk m c 0 t (ix2 y0 y1) = V m c main_arg0 (ix2 r c') := by
  unfold iblk
  rw [View.read_apply]
  show V m c main_arg0 _ = V m c main_arg0 _
  refine congrArg (V m c main_arg0) (funext fun a => Fin.ext ?_)
  match a with
  | ⟨0, _⟩ => show win0_0.index t 0 * 1024 + 1 * y0.val = r.val; rw [idx0_row t, hr]; omega
  | ⟨1, _⟩ => show win0_0.index t 1 * 1024 + 1 * y1.val = c'.val; rw [idx0_col t, hc]; omega

theorem blk1 (c : Dev nD) (t : Fin cfg0.N) (y0 : Fin 1024) (y1 : Fin 512) (r : Fin 4096) (c' : Fin 4096)
    (hr : r.val = 1024 * (t.val / 32) + y0.val) (hc : c'.val = 512 * (t.val % 8) + y1.val) :
    iblk m c 1 t (ix2 y0 y1) = V m c main_call0_v1 (ix2 r c') := by
  unfold iblk
  rw [View.read_apply]
  show V m c main_call0_v1 _ = V m c main_call0_v1 _
  refine congrArg (V m c main_call0_v1) (funext fun a => Fin.ext ?_)
  match a with
  | ⟨0, _⟩ => show win0_1.index t 0 * 1024 + 1 * y0.val = r.val; rw [idx1_row t, hr]; omega
  | ⟨1, _⟩ => show win0_1.index t 1 * 512 + 1 * y1.val = c'.val; rw [idx1_col t, hc]; omega

theorem blk2 (c : Dev nD) (t : Fin cfg0.N) (y0 : Fin 512) (y1 : Fin 1024) (r : Fin 4096) (c' : Fin 4096)
    (hr : r.val = 512 * (t.val % 8) + y0.val) (hc : c'.val = 1024 * (t.val / 8 % 4) + y1.val) :
    iblk m c 2 t (ix2 y0 y1) = V m c main_call0_v2 (ix2 r c') := by
  unfold iblk
  rw [View.read_apply]
  show V m c main_call0_v2 _ = V m c main_call0_v2 _
  refine congrArg (V m c main_call0_v2) (funext fun a => Fin.ext ?_)
  match a with
  | ⟨0, _⟩ => show win0_2.index t 0 * 512 + 1 * y0.val = r.val; rw [idx2_row t, hr]; omega
  | ⟨1, _⟩ => show win0_2.index t 1 * 1024 + 1 * y1.val = c'.val; rw [idx2_col t, hc]; omega

theorem blk3 (c : Dev nD) (t : Fin cfg0.N) (y0 : Fin 1) (y1 : Fin 1024) (r : Fin 1) (c' : Fin 4096)
    (hr : r.val = 1 * (0) + y0.val) (hc : c'.val = 1024 * (t.val / 8 % 4) + y1.val) :
    iblk m c 3 t (ix2 y0 y1) = V m c main_call0_v5 (ix2 r c') := by
  unfold iblk
  rw [View.read_apply]
  show V m c main_call0_v5 _ = V m c main_call0_v5 _
  refine congrArg (V m c main_call0_v5) (funext fun a => Fin.ext ?_)
  match a with
  | ⟨0, _⟩ => show win0_3.index t 0 * 1 + 1 * y0.val = r.val; rw [idx3_row t, hr]; omega
  | ⟨1, _⟩ => show win0_3.index t 1 * 1024 + 1 * y1.val = c'.val; rw [idx3_col t, hc]; omega

theorem blk4 (c : Dev nD) (t : Fin cfg0.N) (y0 : Fin 4) (y1 : Fin 1024) (r : Fin 4) (c' : Fin 4096)
    (hr : r.val = 4 * (0) + y0.val) (hc : c'.val = 1024 * (t.val / 8 % 4) + y1.val) :
    iblk m c 4 t (ix2 y0 y1) = V m c main_call0_v4 (ix2 r c') := by
  unfold iblk
  rw [View.read_apply]
  show V m c main_call0_v4 _ = V m c main_call0_v4 _
  refine congrArg (V m c main_call0_v4) (funext fun a => Fin.ext ?_)
  match a with
  | ⟨0, _⟩ => show win0_4.index t 0 * 4 + 1 * y0.val = r.val; rw [idx4_row t, hr]; omega
  | ⟨1, _⟩ => show win0_4.index t 1 * 1024 + 1 * y1.val = c'.val; rw [idx4_col t, hc]; omega

theorem blk5 (c : Dev nD) (t : Fin cfg0.N) (y0 : Fin 1024) (y1 : Fin 4) (r : Fin 4096) (c' : Fin 4)
    (hr : r.val = 1024 * (t.val / 32) + y0.val) (hc : c'.val = 4 * (0) + y1.val) :
    iblk m c 5 t (ix2 y0 y1) = V m c main_call0_v0 (ix2 r c') := by
  unfold iblk
  rw [View.read_apply]
  show V m c main_call0_v0 _ = V m c main_call0_v0 _
  refine congrArg (V m c main_call0_v0) (funext fun a => Fin.ext ?_)
  match a with
  | ⟨0, _⟩ => show win0_5.index t 0 * 1024 + 1 * y0.val = r.val; rw [idx5_row t, hr]; omega
  | ⟨1, _⟩ => show win0_5.index t 1 * 4 + 1 * y1.val = c'.val; rw [idx5_col t, hc]; omega

end Cert.KernelIdeal.Blocks

end
-- ==== Proof.HostPrefix.lean ====
/-
  What the host prepares before the kernel is launched, read at an entry over the extended reals.
  Six operations run first: h·q (a [4096, 4] product), the bf16 copies of x and of b, the transpose of p and its bf16
  copy, and a reshaped to one row. A change of float format is the identity here, so the kernel's x and b windows read
  the arguments x and b themselves, its pᵀ window reads p with the coordinates exchanged, its a window reads a, and its
  h·q window reads the sum over t of h[r,t]·q[t,s].
-/
import proofs.«181534_j9680856285215_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.HostPrefix

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-! ## The six arguments, typed as arrays of extended reals -/

abbrev argH (c : Dev nD) : FVec Ideal S4096x4096 .f32 := m ((c : Thread nD τ).loc main_arg0)
abbrev argX (c : Dev nD) : FVec Ideal S4096x4096 .f32 := m ((c : Thread nD τ).loc main_arg1)
abbrev argA (c : Dev nD) : FVec Ideal S4096 .f32 := m ((c : Thread nD τ).loc main_arg2)
abbrev argP (c : Dev nD) : FVec Ideal S4096x4 .f32 := m ((c : Thread nD τ).loc main_arg3)
abbrev argQ (c : Dev nD) : FVec Ideal S4096x4 .f32 := m ((c : Thread nD τ).loc main_arg4)
abbrev argB (c : Dev nD) : FVec Ideal S4096x4096 .f32 := m ((c : Thread nD τ).loc main_arg5)

/-! ## The five prepared arrays as terms of the arguments -/

theorem hq_eq (c : Dev nD) : @Eq (FVec Ideal S4096x4 .f32) (V m c main_call0_v0)
    (Host.dotGeneral dot_S4096x4096_S4096x4_S4096x4_1_0_0_1_n_n (some .fp32) (argH m c) (argQ m c)) := by
  dsimp only [V, hostOps0]; after_results; rfl

theorem x_eq (c : Dev nD) : @Eq (FVec Ideal S4096x4096 .bf16) (V m c main_call0_v1)
    (truncf .bf16 (argX m c) bitsLt_bf16_f32) := by
  dsimp only [V, hostOps0]; after_results; rfl

theorem b_eq (c : Dev nD) : @Eq (FVec Ideal S4096x4096 .bf16) (V m c main_call0_v2)
    (truncf .bf16 (argB m c) bitsLt_bf16_f32) := by
  dsimp only [V, hostOps0]; after_results; rfl

theorem pT_eq (c : Dev nD) : @Eq (FVec Ideal S4x4096 .bf16) (V m c main_call0_v4)
    (truncf .bf16 (transpose S4x4096 [1, 0] (argP m c) transposes_S4096x4_S4x4096_1_0) bitsLt_bf16_f32) := by
  dsimp only [V, hostOps0]; after_results; rfl

theorem a_eq (c : Dev nD) : @Eq (FVec Ideal S1x4096 .f32) (V m c main_call0_v5)
    (shapeCast S1x4096 (argA m c) shapeCasts_S4096_S1x4096) := by
  dsimp only [V, hostOps0]; after_results; rfl

/-! ## Read at an entry -/

theorem d0_lhs0 (i : S4096x4.Idx) (q : dot_S4096x4096_S4096x4_S4096x4_1_0_0_1_n_n.contr.Idx) : (dot_S4096x4096_S4096x4_S4096x4_1_0_0_1_n_n.lhsIdx i q 0).val = (i 0).val := by
  unfold DotDims.lhsIdx
  rw [dif_neg (show ¬(0 : Fin S4096x4096.rank) ∈ dot_S4096x4096_S4096x4_S4096x4_1_0_0_1_n_n.lhsBatch by decide), dif_pos (show (0 : Fin S4096x4096.rank) ∈ dot_S4096x4096_S4096x4_S4096x4_1_0_0_1_n_n.lhsNonContracting by decide)]
  rfl
theorem d0_lhs1 (i : S4096x4.Idx) (q : dot_S4096x4096_S4096x4_S4096x4_1_0_0_1_n_n.contr.Idx) : (dot_S4096x4096_S4096x4_S4096x4_1_0_0_1_n_n.lhsIdx i q 1).val = (q ⟨0, by decide⟩).val :=
  dot_S4096x4096_S4096x4_S4096x4_1_0_0_1_n_n.lhsIdx_val_of_single rfl i q
theorem d0_rhs0 (i : S4096x4.Idx) (q : dot_S4096x4096_S4096x4_S4096x4_1_0_0_1_n_n.contr.Idx) : (dot_S4096x4096_S4096x4_S4096x4_1_0_0_1_n_n.rhsIdx i q 0).val = (q ⟨0, by decide⟩).val :=
  dot_S4096x4096_S4096x4_S4096x4_1_0_0_1_n_n.rhsIdx_val_of_single rfl i q
theorem d0_rhs1 (i : S4096x4.Idx) (q : dot_S4096x4096_S4096x4_S4096x4_1_0_0_1_n_n.contr.Idx) : (dot_S4096x4096_S4096x4_S4096x4_1_0_0_1_n_n.rhsIdx i q 1).val = (i 1).val := by
  unfold DotDims.rhsIdx
  rw [dif_neg (show ¬(1 : Fin S4096x4.rank) ∈ dot_S4096x4096_S4096x4_S4096x4_1_0_0_1_n_n.rhsBatch by decide), dif_pos (show (1 : Fin S4096x4.rank) ∈ dot_S4096x4096_S4096x4_S4096x4_1_0_0_1_n_n.rhsNonContracting by decide)]
  rfl

/-- The host's h·q at (p, q): the sum over t of h[p,t]·q[t,q], whatever precision the product asks for. -/
theorem prodHQ_apply (l : FVec Ideal S4096x4096 .f32) (r : FVec Ideal S4096x4 .f32) (p : Fin 4096) (q : Fin 4) :
    Host.dotGeneral dot_S4096x4096_S4096x4_S4096x4_1_0_0_1_n_n (some .fp32) l r (ix2 p q) = ∑ k : Fin 4096, l (ix2 p k) * r (ix2 k q) := by
  simp only [Host.dotGeneral]
  rw [Ideal.dotGeneral_apply]
  rw [← Equiv.sum_comp (contrEquiv1 dot_S4096x4096_S4096x4_S4096x4_1_0_0_1_n_n 4096 rfl rfl).symm]
  refine Finset.sum_congr rfl fun k _ => ?_
  have hk := contrEquiv1_symm_val dot_S4096x4096_S4096x4_S4096x4_1_0_0_1_n_n 4096 rfl rfl k
  have el : dot_S4096x4096_S4096x4_S4096x4_1_0_0_1_n_n.lhsIdx (ix2 p q) ((contrEquiv1 dot_S4096x4096_S4096x4_S4096x4_1_0_0_1_n_n 4096 rfl rfl).symm k) = ix2 p k := funext fun a => Fin.ext (by
    match a with
    | ⟨0, _⟩ => exact d0_lhs0 _ _
    | ⟨1, _⟩ => exact (d0_lhs1 _ _).trans hk)
  have er : dot_S4096x4096_S4096x4_S4096x4_1_0_0_1_n_n.rhsIdx (ix2 p q) ((contrEquiv1 dot_S4096x4096_S4096x4_S4096x4_1_0_0_1_n_n 4096 rfl rfl).symm k) = ix2 k q := funext fun a => Fin.ext (by
    match a with
    | ⟨0, _⟩ => exact (d0_rhs0 _ _).trans hk
    | ⟨1, _⟩ => exact d0_rhs1 _ _)
  rw [el, er]

theorem hq_at (c : Dev nD) (r : Fin 4096) (s : Fin 4) :
    (V m c main_call0_v0 : FVec Ideal S4096x4 .f32) (ix2 r s) = ∑ t : Fin 4096, argH m c (ix2 r t) * argQ m c (ix2 t s) :=
  (congrFun (hq_eq m c) (ix2 r s)).trans (prodHQ_apply (argH m c) (argQ m c) r s)

theorem x_at (c : Dev nD) (r t : Fin 4096) :
    (V m c main_call0_v1 : FVec Ideal S4096x4096 .bf16) (ix2 r t) = argX m c (ix2 r t) :=
  (congrFun (x_eq m c) (ix2 r t)).trans rfl

theorem b_at (c : Dev nD) (t c' : Fin 4096) :
    (V m c main_call0_v2 : FVec Ideal S4096x4096 .bf16) (ix2 t c') = argB m c (ix2 t c') :=
  (congrFun (b_eq m c) (ix2 t c')).trans rfl

theorem pT_at (c : Dev nD) (s : Fin 4) (c' : Fin 4096) :
    (V m c main_call0_v4 : FVec Ideal S4x4096 .bf16) (ix2 s c') = argP m c (ix2 c' s) :=
  (congrFun (pT_eq m c) (ix2 s c')).trans (transpose_ix2_apply (argP m c) transposes_S4096x4_S4x4096_1_0 s c')

theorem a_at (c : Dev nD) (c' : Fin 4096) :
    (V m c main_call0_v5 : FVec Ideal S1x4096 .f32) (ix2 (0 : Fin 1) c') = argA m c (ix1 c') :=
  (congrFun (a_eq m c) (ix2 (0 : Fin 1) c')).trans (shapeCast_a_1a_apply (argA m c) shapeCasts_S4096_S1x4096 0 c')

theorem h_at (c : Dev nD) (r c' : Fin 4096) :
    (V m c main_arg0 : FVec Ideal S4096x4096 .f32) (ix2 r c') = argH m c (ix2 r c') :=
  congrFun (V_main_arg0 m c) (ix2 r c')

end Cert.KernelIdeal.HostPrefix

end
-- ==== Proof.LibBlockSum.lean ====
/-
  A finite sum of a·b terms taken as a blocks of b consecutive terms. Over any additive commutative monoid the total is the
  sum over the blocks of each block's own sum, the term at block s and offset k being the one at position k + b·s. Only the
  commutativity and associativity of the addition are used, so the statement holds on the extended reals with no
  finiteness hypothesis.
-/
import Mathlib.Algebra.BigOperators.Fin
import Mathlib.Logic.Equiv.Fin.Basic

namespace Cert.LibBlockSum

open Finset

/-- Position `k + b·s` among `a·b` positions: offset `k` inside block `s`. -/
def pos (a b : ℕ) (s : Fin a) (k : Fin b) : Fin (a * b) := finProdFinEquiv (s, k)

/-- Its value. -/
theorem pos_val (a b : ℕ) (s : Fin a) (k : Fin b) : (pos a b s k).val = k.val + b * s.val := rfl

/-- The sum over all `a·b` positions is the sum over the `a` blocks of the sum over the `b` offsets. -/
theorem sum_blocks {M : Type*} [AddCommMonoid M] (a b : ℕ) (f : Fin (a * b) → M) :
    ∑ t, f t = ∑ s : Fin a, ∑ k : Fin b, f (pos a b s k) := by
  rw [← Equiv.sum_comp finProdFinEquiv f, Fintype.sum_prod_type]
  rfl

/-- The same with the blocks counted by the naturals below `a`: when `g s` is block `s`'s sum for every `s < a`
    (whatever `g` is elsewhere), the sum of `g` over `range a` is the total. -/
theorem sum_range_blocks {M : Type*} [AddCommMonoid M] (a b : ℕ) (f : Fin (a * b) → M) (g : ℕ → M)
    (hg : ∀ s : Fin a, g s.val = ∑ k : Fin b, f (pos a b s k)) :
    ∑ s ∈ range a, g s = ∑ t, f t := by
  rw [sum_blocks, Finset.sum_range]
  exact Finset.sum_congr rfl fun s _ => hg s

end Cert.LibBlockSum
-- ==== Proof.KernelValue.lean ====
/-
  The kernel's result array is the specified array.
  At a last point t of a reduction run, with (i, j) = (t / 32, t / 8 mod 4), entry (p, q) of the block written back is
  the specification's entry at row r = 1024·i + p and column c = 1024·j + q: the h, a, h·q and pᵀ blocks are the
  arguments' entries at r and c; the run's eight products x_k·b_k are the eight slabs of 512 terms of Σ_t x[r,t]·b[t,c],
  and a sum taken slab by slab is the whole sum; the leading zero is absorbed. The sixteen written blocks tile the
  [4096, 4096] result, so the array ends at the specification everywhere.
-/
import proofs.«181534_j9680856285215_2_alg».proof.Proof.Fold
import proofs.«181534_j9680856285215_2_alg».proof.Proof.Blocks
import proofs.«181534_j9680856285215_2_alg».proof.Proof.HostPrefix
import proofs.«181534_j9680856285215_2_alg».proof.Proof.LibBlockSum
import proofs.«181534_j9680856285215_2_alg».proof.Proof.Spec

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.HostPrefix Cert.LibBlockSum

variable (m : (ℓ : Loc nD τ sig) → Buf (Elt Ideal) ℓ) (ρ : Dev nD → PrngReg)

/-- The specified array of the six arguments as launched. -/
abbrev result (c : Dev nD) : Buf (Elt Ideal) ((c : Thread nD τ).loc main_v0) :=
  Cert.Spec.G (argH m c) (argX m c) (argA m c) (argP m c) (argQ m c) (argB m c)

/-! ## Where the output's blocks sit -/

theorem idx6_row : ∀ t : Fin cfg0.N, win0_6.index t (0 : Fin 2) = t.val / 32 :=
  (by decide +kernel : ∀ t : Fin grid0.N, win0_6.index t (0 : Fin 2) = t.val / 32)
theorem idx6_col : ∀ t : Fin cfg0.N, win0_6.index t (1 : Fin 2) = t.val / 8 % 4 :=
  (by decide +kernel : ∀ t : Fin grid0.N, win0_6.index t (1 : Fin 2) = t.val / 8 % 4)

/-- Entry (p, q) of the block at point t is the array's entry (1024·(t / 32) + p, 1024·(t / 8 mod 4) + q). -/
theorem emb6 (t : Fin cfg0.N) (p q : Fin 1024) (r c' : Fin 4096)
    (hr : r.val = 1024 * (t.val / 32) + p.val) (hc : c'.val = 1024 * (t.val / 8 % 4) + q.val) :
    ((cfg0.win 6).blk t).view.emb (ix2 p q) = ix2 r c' := by
  refine funext fun a => Fin.ext ?_
  match a with
  | ⟨0, _⟩ => show win0_6.index t 0 * 1024 + 1 * p.val = r.val; rw [idx6_row t, hr]; omega
  | ⟨1, _⟩ => show win0_6.index t 1 * 1024 + 1 * q.val = c'.val; rw [idx6_col t, hc]; omega

/-! ## One entry -/

/-- The product of the s-th point of t's run, at (p, q), is the s-th slab of 512 terms of Σ_t' x[r,t']·b[t',c]. -/
theorem addend_eq (c : Dev nD) (t : Fin cfg0.N) (h7 : t.val % 8 = 7) (p q : Fin 1024) (r c' : Fin 4096)
    (hr : r.val = 1024 * (t.val / 32) + p.val) (hc : c'.val = 1024 * (t.val / 8 % 4) + q.val) (s : Fin 8) :
    Fold.addendAt m c (8 * (t.val / 8) + s.val) p q
      = ∑ k : Fin 512, (fun t' : Fin 4096 => argX m c (ix2 r t') * argB m c (ix2 t' c')) (pos 8 512 s k) := by
  have hN : cfg0.N = 128 := N_0
  have ht := t.isLt
  have hs := s.isLt
  have hn : 8 * (t.val / 8) + s.val < cfg0.N := by omega
  unfold Fold.addendAt
  rw [dif_pos hn]
  refine Finset.sum_congr rfl fun k _ => ?_
  have hk := k.isLt
  have ex : Fold.xblk m c ⟨_, hn⟩ (ix2 p k) = argX m c (ix2 r (pos 8 512 s k)) :=
    (Blocks.blk1 m c ⟨_, hn⟩ p k r (pos 8 512 s k)
      (by show r.val = 1024 * ((8 * (t.val / 8) + s.val) / 32) + p.val; omega)
      (by show (pos 8 512 s k).val = 512 * ((8 * (t.val / 8) + s.val) % 8) + k.val; rw [pos_val]; omega)).trans
      (x_at m c r _)
  have eb : Fold.bblk m c ⟨_, hn⟩ (ix2 k q) = argB m c (ix2 (pos 8 512 s k) c') :=
    (Blocks.blk2 m c ⟨_, hn⟩ k q (pos 8 512 s k) c'
      (by show (pos 8 512 s k).val = 512 * ((8 * (t.val / 8) + s.val) % 8) + k.val; rw [pos_val]; omega)
      (by show c'.val = 1024 * ((8 * (t.val / 8) + s.val) / 8 % 4) + q.val; omega)).trans
      (b_at m c _ c')
  show Fold.xblk m c ⟨_, hn⟩ (ix2 p k) * Fold.bblk m c ⟨_, hn⟩ (ix2 k q) = _
  rw [ex, eb]

/-- The block a last point writes back is, entry by entry, the specification. -/
theorem block_entry (c : Dev nD) (t : Fin cfg0.N) (h7 : t.val % 8 = 7) (p q : Fin 1024) (r c' : Fin 4096)
    (hr : r.val = 1024 * (t.val / 32) + p.val) (hc : c'.val = 1024 * (t.val / 8 % 4) + q.val) :
    k0_pay3 (Fold.hblk m c t) (Fold.ablk m c t) (Fold.qblk m c t) (Fold.pblk m c t)
        ((outsAt0 m c t.val t.isLt).2) (ix2 p q)
      = Cert.Spec.entry (argH m c) (argX m c) (argA m c) (argP m c) (argQ m c) (argB m c) r c' := by
  rw [Payload.epilogue_apply, Fold.acc_after m c t h7 p q]
  have eh : Fold.hblk m c t (ix2 p q) = argH m c (ix2 r c') :=
    (Blocks.blk0 m c t p q r c' hr hc).trans (h_at m c r c')
  have ea : Fold.ablk m c t (ix2 (0 : Fin 1) q) = argA m c (ix1 c') :=
    (Blocks.blk3 m c t 0 q 0 c' rfl hc).trans (a_at m c c')
  have eq' : ∀ s : Fin 4, Fold.qblk m c t (ix2 p s) = Cert.Spec.hq (argH m c) (argQ m c) r s := fun s =>
    (Blocks.blk5 m c t p s r s hr (by omega)).trans (hq_at m c r s)
  have ep : ∀ s : Fin 4, Fold.pblk m c t (ix2 s q) = argP m c (ix2 c' s) := fun s =>
    (Blocks.blk4 m c t s q s c' (by omega) hc).trans (pT_at m c s c')
  have ex : ∑ s ∈ Finset.range 8, Fold.addendAt m c (8 * (t.val / 8) + s) p q
      = Cert.Spec.xb (argX m c) (argB m c) r c' :=
    sum_range_blocks 8 512 (fun t' : Fin 4096 => argX m c (ix2 r t') * argB m c (ix2 t' c')) _
      (fun s => addend_eq m c t h7 p q r c' hr hc s)
  rw [eh, ea, ex, zero_add]
  simp only [eq', ep]
  rfl

/-! ## The array -/

/-- What a writing point writes back is its block of the specified array. -/
theorem flushed_eq (c : Dev nD) (t : Fin cfg0.N) (hf : (cfg0.win 6).flush t = true) :
    (dats m 0 c).flushed 6 t = ((cfg0.win 6).blk t).view.read (Elt Ideal) (result m c) := by
  have h7 : t.val % 8 = 7 := (flush0_6 t).mp hf
  have hN : cfg0.N = 128 := N_0
  have ht := t.isLt
  rw [Value.flushed6 m c t, Fold.out_at m c t h7]
  funext j
  obtain ⟨p, q, rfl⟩ : ∃ (p q : Fin 1024), j = ix2 p q := ⟨j 0, j 1, eq_ix2 j⟩
  have hp := p.isLt
  have hq := q.isLt
  rw [View.read_apply, emb6 t p q ⟨1024 * (t.val / 32) + p.val, by omega⟩ ⟨1024 * (t.val / 8 % 4) + q.val, by omega⟩ rfl rfl]
  exact block_entry m c t h7 p q _ _ rfl rfl

/-- An entry of the array is in point t's block iff each coordinate is in the block's range. -/
theorem mem_blk (t : Fin cfg0.N) (i : S4096x4096.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v0).slice (win0_6.rect t)).set ↔ _
  rw [View.set_slice_whole, Rect.mem_set_unit]
  exact Iff.rfl

/-- Every entry is in the block of the last point of the run that owns its row block and column block. -/
theorem cover (i : S4096x4096.Idx) :
    ∃ t : Fin cfg0.N, (cfg0.win 6).flush t = true ∧ i ∈ ((cfg0.win 6).blk t).view.set := by
  have hN : cfg0.N = 128 := N_0
  have h0 : (i 0).val < 4096 := (i 0).isLt
  have h1 : (i 1).val < 4096 := (i 1).isLt
  refine ⟨⟨32 * ((i 0).val / 1024) + 8 * ((i 1).val / 1024) + 7, by omega⟩,
    (flush0_6 _).mpr (by show (32 * ((i 0).val / 1024) + 8 * ((i 1).val / 1024) + 7) % 8 = 7; omega), ?_⟩
  rw [mem_blk]
  intro a
  match a with
  | ⟨0, _⟩ =>
    show win0_6.index _ (0 : Fin 2) * 1024 ≤ (i 0).val ∧ (i 0).val < win0_6.index _ (0 : Fin 2) * 1024 + 1024
    rw [idx6_row]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_6.index _ (1 : Fin 2) * 1024 ≤ (i 1).val ∧ (i 1).val < win0_6.index _ (1 : Fin 2) * 1024 + 1024
    rw [idx6_col]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- So the result array ends at the specification. -/
theorem final (c : Dev nD) : (dats m 0 c).arrAt 6 cfg0.N = result m c :=
  (dats m 0 c).arrAt_eq_of_cover 6 (result m c) (flushed_eq m c) cover

/-- The kernel's run: the result array at the specification, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KValue

end
-- ==== Proof.Reference.lean ====
/-
  The reference program's result is the specified array.
  Its sixteen host operations are read one at a time at an entry (r, c): the two broadcasts of a give a[c]; h·q and
  (h·q)·pᵀ and x·b are the plain sums of products (a host matrix product is that sum at this instance, whatever its
  precision attribute), the transpose of p read at (s, c) being p[c, s]; the two scalar ones are the same literal 1.0 the
  specification carries. Additions and multiplications stay grouped as the program has them, which is how the
  specification is written, so nothing is left to rearrange.
-/
import proofs.«181534_j9680856285215_2_alg».proof.Proof.Gen.ReferenceIdeal.Read
import proofs.«181534_j9680856285215_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

/-! ## The operations' operand entries, in coordinates -/

theorem a_idx (r c : Fin 4096) : idx_main_v0 (idx_main_v1 (ix2 r c)) = ix1 c :=
  funext fun a => Fin.ext (by match a with | ⟨0, _⟩ => rfl)
theorem hq_l (r : Fin 4096) (s : Fin 4) (t : Fin 4096) : lidx_main_v3 (ix2 r s) t = ix2 r t :=
  funext fun a => Fin.ext (by match a with | ⟨0, _⟩ => rfl | ⟨1, _⟩ => rfl)
theorem hq_r (r : Fin 4096) (s : Fin 4) (t : Fin 4096) : ridx_main_v3 (ix2 r s) t = ix2 t s :=
  funext fun a => Fin.ext (by match a with | ⟨0, _⟩ => rfl | ⟨1, _⟩ => rfl)
theorem pT_idx (s : Fin 4) (c : Fin 4096) : idx_main_v4 (ix2 s c) = ix2 c s :=
  funext fun a => Fin.ext (by match a with | ⟨0, _⟩ => rfl | ⟨1, _⟩ => rfl)
theorem lr_l (r c : Fin 4096) (s : Fin 4) : lidx_main_v5 (ix2 r c) s = ix2 r s :=
  funext fun a => Fin.ext (by match a with | ⟨0, _⟩ => rfl | ⟨1, _⟩ => rfl)
theorem lr_r (r c : Fin 4096) (s : Fin 4) : ridx_main_v5 (ix2 r c) s = ix2 s c :=
  funext fun a => Fin.ext (by match a with | ⟨0, _⟩ => rfl | ⟨1, _⟩ => rfl)
theorem xb_l (r c t : Fin 4096) : lidx_main_v10 (ix2 r c) t = ix2 r t :=
  funext fun a => Fin.ext (by match a with | ⟨0, _⟩ => rfl | ⟨1, _⟩ => rfl)
theorem xb_r (r c t : Fin 4096) : ridx_main_v10 (ix2 r c) t = ix2 t c :=
  funext fun a => Fin.ext (by match a with | ⟨0, _⟩ => rfl | ⟨1, _⟩ => rfl)

/-- The reference's last stage, as a function of the six arguments, is the specification. -/
theorem result_eq (h x : (⟨S4096x4096, .f32⟩ : BufTy).Contents (Elt Ideal)) (a : (⟨S4096, .f32⟩ : BufTy).Contents (Elt Ideal))
    (p q : (⟨S4096x4, .f32⟩ : BufTy).Contents (Elt Ideal)) (b : (⟨S4096x4096, .f32⟩ : BufTy).Contents (Elt Ideal)) :
    val_main_v13 (F := Ideal) h x a p q b = Cert.Spec.G h x a p q b := by
  funext i
  obtain ⟨r, c, rfl⟩ : ∃ (r c : Fin 4096), i = ix2 r c := ⟨i 0, i 1, eq_ix2 i⟩
  rw [val_main_v13_apply, val_main_v9_apply, val_main_v8_apply, val_main_v7_apply, val_main_cst_apply, val_main_v6_apply,
    val_main_v2_apply, val_main_v1_apply, val_main_v0_apply, val_main_v5_apply, val_main_v12_apply, val_main_v11_apply,
    val_main_cst_0_apply, val_main_v10_apply]
  simp only [val_main_v3_apply, val_main_v4_apply, a_idx, hq_l, hq_r, pT_idx, lr_l, lr_r, xb_l, xb_r,
    Ideal.addf_def, Ideal.mulf_def, Ideal.ofBits_def]
  rfl

end Cert.ReferenceIdeal.RefValue

end
-- ==== Proof.lean ====
/-
  The certificate of a fused state-update kernel against its jnp reference, over the extended reals.

  Both programs take h, x : [4096, 4096], a : [4096], p, q : [4096, 4] and b : [4096, 4096] and return
      (h + 1·(h·a + (h·q)·pᵀ)) + 1·(x·b),
  the row vector a repeated down the rows, the products matrix products. The reference does this in sixteen host
  operations. The kernel lets the host form h·q, pᵀ and reduced-precision copies of x and b, and then walks a 4 × 4 × 8
  grid: for each of the sixteen [1024, 1024] output blocks it runs over the eight slabs of 512 of the contracted axis of
  x·b, keeping an accumulator that starts from zero, and at the last slab adds the accumulator to the block of
  h + 1·(h·a + (h·q)·pᵀ) and writes the block out.

  Over the extended reals a change of float format is the identity and a matrix product is the plain sum of products, so
  the only difference between the two programs is that the kernel takes Σ_t x[r,t]·b[t,c] as zero plus eight partial sums
  of 512 terms. Addition of extended reals is commutative and associative, so that is the same sum; no finiteness of the
  inputs is needed, and the precondition is not opened.

  The modules: Spec (the function), Reference (the reference computes it), Pieces and Payload (what one run of the kernel
  body stores, as arithmetic at an entry), Blocks and HostPrefix (which entries of the arguments a block holds), Fold (the
  accumulator after a run of eight points), LibBlockSum (a sum taken block by block), KernelValue (the kernel's result
  array is the function). The frames of the three programs are the generated ones; the idealization rewrote nothing.
-/
import proofs.«181534_j9680856285215_2_alg».proof.Defs
import proofs.«181534_j9680856285215_2_alg».proof.Proof.Gen.Kernel
import proofs.«181534_j9680856285215_2_alg».proof.Proof.Gen.Kernel.Skeleton
import proofs.«181534_j9680856285215_2_alg».proof.Proof.Gen.Kernel.Launch
import proofs.«181534_j9680856285215_2_alg».proof.Proof.Gen.Kernel.Points
import proofs.«181534_j9680856285215_2_alg».proof.Proof.Gen.Kernel.Frame
import proofs.«181534_j9680856285215_2_alg».proof.Proof.Gen.KernelIdeal
import proofs.«181534_j9680856285215_2_alg».proof.Proof.Gen.KernelIdeal.Skeleton
import proofs.«181534_j9680856285215_2_alg».proof.Proof.Gen.KernelIdeal.Launch
import proofs.«181534_j9680856285215_2_alg».proof.Proof.Gen.KernelIdeal.Points
import proofs.«181534_j9680856285215_2_alg».proof.Proof.Gen.KernelIdeal.Frame
import proofs.«181534_j9680856285215_2_alg».proof.Proof.Gen.KernelIdeal.Value
import proofs.«181534_j9680856285215_2_alg».proof.Proof.Gen.ReferenceIdeal
import proofs.«181534_j9680856285215_2_alg».proof.Proof.Gen.ReferenceIdeal.Run
import proofs.«181534_j9680856285215_2_alg».proof.Proof.Gen.ReferenceIdeal.Read
import proofs.«181534_j9680856285215_2_alg».proof.Proof.Gen.Pre_finite_inputs
import proofs.«181534_j9680856285215_2_alg».proof.Proof.KernelValue
import proofs.«181534_j9680856285215_2_alg».proof.Proof.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the specified array of those arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
